-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2x16000x512 : Shape := ⟨4, ![8, 2, 16000, 512]⟩
abbrev S16x512 : Shape := ⟨2, ![16, 512]⟩
abbrev S_ : Shape := ⟨0, ![]⟩

class Facts : Prop where
  bcast_S_S8x2x16000x512 : S_.BroadcastsInDim S8x2x16000x512 (![] : Fin 0 → Fin S8x2x16000x512.rank)
  reducesTo_S8x2x16000x512_S_d0_1_2_3 : S8x2x16000x512.ReducesTo [0, 1, 2, 3] S_
  h_S_ : 0 < S_.numel
  bcast_S_S16x512 : S_.BroadcastsInDim S16x512 (![] : Fin 0 → Fin S16x512.rank)
  reducesTo_S16x512_S_d0_1 : S16x512.ReducesTo [0, 1] S_

variable [Facts]

def fn {F : FTy → Type} [FloatOps F] (main_arg0 : FVec F S8x2x16000x512 .f32) (main_arg1 : FVec F S16x512 .f32) : IVec S_ 1 :=
  let main_v0 : FVec F S8x2x16000x512 .f32 := Host.absf main_arg0
  let main_cst : FVec F S_ .f32 := constant S_ .f32 0x7F800000#32
  let main_v1 : FVec F S8x2x16000x512 .f32 := broadcastInDim S8x2x16000x512 ![] bcast_S_S8x2x16000x512 main_cst
  let main_v2 : IVec S8x2x16000x512 1 := cmpf .olt main_v0 main_v1
  let main_c : IVec S_ 1 := constantI S_ 1 1#1
  let main_v3 : IVec S_ 1 := (fun x v => Host.reduce IntOp.andi x v reducesTo_S8x2x16000x512_S_d0_1_2_3 h_S_) main_v2 main_c
  let main_v4 : FVec F S16x512 .f32 := Host.absf main_arg1
  let main_cst_0 : FVec F S_ .f32 := constant S_ .f32 0x7F800000#32
  let main_v5 : FVec F S16x512 .f32 := broadcastInDim S16x512 ![] bcast_S_S16x512 main_cst_0
  let main_v6 : IVec S16x512 1 := cmpf .olt main_v4 main_v5
  let main_c_1 : IVec S_ 1 := constantI S_ 1 1#1
  let main_v7 : IVec S_ 1 := (fun x v => Host.reduce IntOp.andi x v reducesTo_S16x512_S_d0_1 h_S_) main_v6 main_c_1
  let main_v8 : IVec S_ 1 := andi main_v3 main_v7
  main_v8
-- ==== Kernel.lean ====
abbrev S8x2x16000x512 : Shape := ⟨4, ![8, 2, 16000, 512]⟩
abbrev S16x512 : Shape := ⟨2, ![16, 512]⟩
abbrev S256000x512 : Shape := ⟨2, ![256000, 512]⟩
abbrev S256000x16 : Shape := ⟨2, ![256000, 16]⟩
abbrev S5120x512 : Shape := ⟨2, ![5120, 512]⟩
abbrev S5120x16 : Shape := ⟨2, ![5120, 16]⟩
abbrev S8x2x16000x16 : Shape := ⟨4, ![8, 2, 16000, 16]⟩
abbrev S8x2x16000x8 : Shape := ⟨4, ![8, 2, 16000, 8]⟩
abbrev S_ : Shape := ⟨0, ![]⟩
abbrev S8x2x1x8 : Shape := ⟨4, ![8, 2, 1, 8]⟩
abbrev S8x2x16001x8 : Shape := ⟨4, ![8, 2, 16001, 8]⟩
abbrev S8x2x128008 : Shape := ⟨3, ![8, 2, 128008]⟩

abbrev nBuf : Space → Nat
  | .hbm => 13
  | .vmem => 5
  | .smem => 0
  | _ => 0

abbrev bufTy : (tb : Table) → Fin (tcTables nBuf tb) → BufTy
  | .hbm, ⟨0, _⟩ => ⟨S8x2x16000x512, .f32⟩
  | .hbm, ⟨1, _⟩ => ⟨S16x512, .f32⟩
  | .hbm, ⟨2, _⟩ => ⟨S256000x512, .f32⟩
  | .hbm, ⟨3, _⟩ => ⟨S256000x16, .f32⟩
  | .hbm, ⟨4, _⟩ => ⟨S8x2x16000x16, .f32⟩
  | .hbm, ⟨5, _⟩ => ⟨S8x2x16000x8, .f32⟩
  | .hbm, ⟨6, _⟩ => ⟨S8x2x16000x8, .f32⟩
  | .hbm, ⟨7, _⟩ => ⟨S_, .f32⟩
  | .hbm, ⟨8, _⟩ => ⟨S8x2x1x8, .f32⟩
  | .hbm, ⟨9, _⟩ => ⟨S8x2x16001x8, .f32⟩
  | .hbm, ⟨10, _⟩ => ⟨S8x2x16001x8, .f32⟩
  | .hbm, ⟨11, _⟩ => ⟨S8x2x16001x8, .f32⟩
  | .hbm, ⟨12, _⟩ => ⟨S8x2x128008, .f32⟩
  | .local _ .vmem, ⟨0, _⟩ => ⟨S5120x512, .f32⟩
  | .local _ .vmem, ⟨1, _⟩ => ⟨S5120x512, .f32⟩
  | .local _ .vmem, ⟨2, _⟩ => ⟨S16x512, .f32⟩
  | .local _ .vmem, ⟨3, _⟩ => ⟨S5120x16, .f32⟩
  | .local _ .vmem, ⟨4, _⟩ => ⟨S5120x16, .f32⟩
  | _, _ => ⟨S8x2x16000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5120x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5120x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S8x2x16000x512_S256000x512 : S8x2x16000x512.ShapeCasts S256000x512
  inb_S5120x512_S5120x512_0_0 : ∀ a, (![0, 0] : Fin 2 → Nat) a + S5120x512.size a ≤ S5120x512.size a
  h_S5120x512 : 0 < S5120x512.numel
  shapeCasts_S5120x512_S5120x512 : S5120x512.ShapeCasts S5120x512
  bitsLt_bf16_f32 : FTy.bits .bf16 < FTy.bits .f32
  inb_S16x512_S16x512_0_0 : ∀ a, (![0, 0] : Fin 2 → Nat) a + S16x512.size a ≤ S16x512.size a
  h_S16x512 : 0 < S16x512.numel
  inb_S5120x16_S5120x16_0_0 : ∀ a, (![0, 0] : Fin 2 → Nat) a + S5120x16.size a ≤ S5120x16.size a
  h_S5120x16 : 0 < S5120x16.numel
  shapeCasts_S256000x16_S8x2x16000x16 : S256000x16.ShapeCasts S8x2x16000x16
  slices_S8x2x16000x16_S8x2x16000x8_0_0_0_0 : S8x2x16000x16.Slices ![0, 0, 0, 0] S8x2x16000x8
  slices_S8x2x16000x16_S8x2x16000x8_0_0_0_8 : S8x2x16000x16.Slices ![0, 0, 0, 8] S8x2x16000x8
  bcast_S_S8x2x1x8 : S_.BroadcastsInDim S8x2x1x8 (![] : Fin 0 → Fin S8x2x1x8.rank)
  concatenates_S8x2x16000x8_S8x2x1x8_S8x2x16001x8_d2 : Shape.Concatenates [S8x2x16000x8, S8x2x1x8] S8x2x16001x8 2
  concatenates_S8x2x1x8_S8x2x16000x8_S8x2x16001x8_d2 : Shape.Concatenates [S8x2x1x8, S8x2x16000x8] S8x2x16001x8 2
  shapeCasts_S8x2x16001x8_S8x2x128008 : S8x2x16001x8.ShapeCasts S8x2x128008
  dot_S5120x512_S16x512_S5120x16_1_1_0_0_n_n_wf : DotDims.WF S5120x512 S16x512 S5120x16 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5120x512.size a ≤ S256000x512.size a
  hwx0_0 : ∀ i : grid0.Coords, EltTy.bits .f32 = 32 ∨ (Rect.block (s := S256000x512) S5120x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x512.size a ≤ S16x512.size a
  hwx0_1 : ∀ i : grid0.Coords, EltTy.bits .f32 = 32 ∨ (Rect.block (s := S16x512) S16x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5120x16.size a ≤ S256000x16.size a
  hwx0_2 : ∀ i : grid0.Coords, EltTy.bits .f32 = 32 ∨ (Rect.block (s := S256000x16) S5120x16.size (cc0_transform_2 i) (hinb0_2 i)).WholeWords (EltTy.packing .f32)

variable [Facts₀]

def dot_S5120x512_S16x512_S5120x16_1_1_0_0_n_n : DotDims S5120x512 S16x512 S5120x16 where
  lhsContracting := [1]
  rhsContracting := [1]
  lhsNonContracting := [0]
  rhsNonContracting := [0]
  lhsBatch := []
  rhsBatch := []
  wf := dot_S5120x512_S16x512_S5120x16_1_1_0_0_n_n_wf

abbrev win0_0 : Pipeline.Window sig grid0 :=
  Pipeline.Window.ofSpec (Memref.whole main_v0) S5120x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S5120x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x2x16000x512 : Shape := ⟨4, ![8, 2, 16000, 512]⟩
abbrev S16x512 : Shape := ⟨2, ![16, 512]⟩
abbrev S8x2x16000x16 : Shape := ⟨4, ![8, 2, 16000, 16]⟩
abbrev S16x32000x8 : Shape := ⟨3, ![16, 32000, 8]⟩
abbrev S16000 : Shape := ⟨1, ![16000]⟩
abbrev S16000x1 : Shape := ⟨2, ![16000, 1]⟩
abbrev S_ : Shape := ⟨0, ![]⟩
abbrev S2 : Shape := ⟨1, ![2]⟩
abbrev S1x2 : Shape := ⟨2, ![1, 2]⟩
abbrev S16000x2 : Shape := ⟨2, ![16000, 2]⟩
abbrev S32000 : Shape := ⟨1, ![32000]⟩
abbrev S16x16001x8 : Shape := ⟨3, ![16, 16001, 8]⟩
abbrev S32000x1 : Shape := ⟨2, ![32000, 1]⟩
abbrev S8x2x128008 : Shape := ⟨3, ![8, 2, 128008]⟩

abbrev nBuf : Space → Nat
  | .hbm => 27
  | .vmem => 0
  | .smem => 0
  | _ => 0

abbrev bufTy : (tb : Table) → Fin (tcTables nBuf tb) → BufTy
  | .hbm, ⟨0, _⟩ => ⟨S8x2x16000x512, .f32⟩
  | .hbm, ⟨1, _⟩ => ⟨S16x512, .f32⟩
  | .hbm, ⟨2, _⟩ => ⟨S8x2x16000x16, .f32⟩
  | .hbm, ⟨3, _⟩ => ⟨S16x32000x8, .f32⟩
  | .hbm, ⟨4, _⟩ => ⟨S16000, .i32⟩
  | .hbm, ⟨5, _⟩ => ⟨S16000x1, .i32⟩
  | .hbm, ⟨6, _⟩ => ⟨S_, .i32⟩
  | .hbm, ⟨7, _⟩ => ⟨S16000x1, .i32⟩
  | .hbm, ⟨8, _⟩ => ⟨S16000x1, .i32⟩
  | .hbm, ⟨9, _⟩ => ⟨S2, .i32⟩
  | .hbm, ⟨10, _⟩ => ⟨S1x2, .i32⟩
  | .hbm, ⟨11, _⟩ => ⟨S16000x2, .i32⟩
  | .hbm, ⟨12, _⟩ => ⟨S16000x2, .i32⟩
  | .hbm, ⟨13, _⟩ => ⟨S16000x2, .i32⟩
  | .hbm, ⟨14, _⟩ => ⟨S32000, .i32⟩
  | .hbm, ⟨15, _⟩ => ⟨S_, .f32⟩
  | .hbm, ⟨16, _⟩ => ⟨S16x16001x8, .f32⟩
  | .hbm, ⟨17, _⟩ => ⟨S_, .i32⟩
  | .hbm, ⟨18, _⟩ => ⟨S32000, .i32⟩
  | .hbm, ⟨19, _⟩ => ⟨S32000, .i1⟩
  | .hbm, ⟨20, _⟩ => ⟨S_, .i32⟩
  | .hbm, ⟨21, _⟩ => ⟨S32000, .i32⟩
  | .hbm, ⟨22, _⟩ => ⟨S32000, .i32⟩
  | .hbm, ⟨23, _⟩ => ⟨S32000, .i32⟩
  | .hbm, ⟨24, _⟩ => ⟨S32000x1, .i32⟩
  | .hbm, ⟨25, _⟩ => ⟨S16x16001x8, .f32⟩
  | .hbm, ⟨26, _⟩ => ⟨S8x2x128008, .f32⟩
  | _, _ => ⟨S8x2x16000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_c_0 : Ref sig .tc := ⟨.hbm, 17, rfl⟩
abbrev main_v13 : Ref sig .tc := ⟨.hbm, 18, rfl⟩
abbrev main_v14 : Ref sig .tc := ⟨.hbm, 19, rfl⟩
abbrev main_c_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]

class Facts₀ : Prop where
  shapeCasts_S8x2x16000x16_S16x32000x8 : S8x2x16000x16.ShapeCasts S16x32000x8
  bcast_S16000_S16000x1_0 : S16000.BroadcastsInDim S16000x1 (![0] : Fin 1 → Fin S16000x1.rank)
  bcast_S_S16000x1 : S_.BroadcastsInDim S16000x1 (![] : Fin 0 → Fin S16000x1.rank)
  bcast_S2_S1x2_1 : S2.BroadcastsInDim S1x2 (![1] : Fin 1 → Fin S1x2.rank)
  bcast_S16000x1_S16000x2_0_1 : S16000x1.BroadcastsInDim S16000x2 (![0, 1] : Fin 2 → Fin S16000x2.rank)
  bcast_S1x2_S16000x2_0_1 : S1x2.BroadcastsInDim S16000x2 (![0, 1] : Fin 2 → Fin S16000x2.rank)
  shapeCasts_S16000x2_S32000 : S16000x2.ShapeCasts S32000
  bcast_S_S16x16001x8 : S_.BroadcastsInDim S16x16001x8 (![] : Fin 0 → Fin S16x16001x8.rank)
  bcast_S_S32000 : S_.BroadcastsInDim S32000 (![] : Fin 0 → Fin S32000.rank)
  bcast_S32000_S32000x1_0 : S32000.BroadcastsInDim S32000x1 (![0] : Fin 1 → Fin S32000x1.rank)
  shapeCasts_S16x16001x8_S8x2x128008 : S16x16001x8.ShapeCasts S8x2x128008
  dot_S8x2x16000x512_S16x512_S8x2x16000x16_3_1_012_0_n_n_wf : DotDims.WF S8x2x16000x512 S16x512 S8x2x16000x16 [3] [1] [0, 1, 2] [0] [] []
  scatter_S16x16001x8_S32000x1_S16x32000x8_02_1_1_1_wf : ScatterDims.WF S16x16001x8 S32000x1 S16x32000x8 [0, 2] [1] [1] 1

variable [Facts₀]

def dot_S8x2x16000x512_S16x512_S8x2x16000x16_3_1_012_0_n_n : DotDims S8x2x16000x512 S16x512 S8x2x16000x16 where
  lhsContracting := [3]
  rhsContracting := [1]
  lhsNonContracting := [0, 1, 2]
  rhsNonContracting := [0]
  lhsBatch := []
  rhsBatch := []
  wf := dot_S8x2x16000x512_S16x512_S8x2x16000x16_3_1_012_0_n_n_wf
def scatter_S16x16001x8_S32000x1_S16x32000x8_02_1_1_1 : ScatterDims S16x16001x8 S32000x1 S16x32000x8 where
  updateWindowDims := [0, 2]
  insertedWindowDims := [1]
  scatterDimsToOperandDims := [1]
  indexVectorDim := 1
  wf := scatter_S16x16001x8_S32000x1_S16x32000x8_02_1_1_1_wf

class Facts : Prop extends Facts₀ where

variable [Facts]
-- ==== Proof.KernelMatmul.lean ====
/-
  The kernel body's arithmetic at an entry.  One grid point loads a block `x0` of 5120 rows of the
  flattened mixture array (5120 x 512) and the whole basis array `x1` (16 x 512), and stores their
  product contracted over the 512 features of BOTH operands (the basis is used untransposed): entry
  `(p, q)` of the stored block is `∑ e, x0[p, e] * x1[q, e]`.  At the ideal values the narrowing of the
  operands to bf16 changes nothing and the zero accumulator adds nothing.
-/
import proofs.«120497_j52664888983802_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-- The product's operand indices at output index `i` and contraction index `q`, coordinate by coordinate:
    the left operand is read at (row of `i`, `q`), the right at (column of `i`, `q`). -/
theorem lhs_0 (i : S5120x16.Idx) (q : dot_S5120x512_S16x512_S5120x16_1_1_0_0_n_n.contr.Idx) :
    (dot_S5120x512_S16x512_S5120x16_1_1_0_0_n_n.lhsIdx i q 0).val = (i 0).val := by
  unfold DotDims.lhsIdx
  rw [dif_neg (show ¬(0 : Fin S5120x512.rank) ∈ dot_S5120x512_S16x512_S5120x16_1_1_0_0_n_n.lhsBatch by decide),
    dif_pos (show (0 : Fin S5120x512.rank) ∈ dot_S5120x512_S16x512_S5120x16_1_1_0_0_n_n.lhsNonContracting by decide)]
  rfl
theorem lhs_1 (i : S5120x16.Idx) (q : dot_S5120x512_S16x512_S5120x16_1_1_0_0_n_n.contr.Idx) :
    (dot_S5120x512_S16x512_S5120x16_1_1_0_0_n_n.lhsIdx i q 1).val = (q ⟨0, by decide⟩).val :=
  dot_S5120x512_S16x512_S5120x16_1_1_0_0_n_n.lhsIdx_val_of_single rfl i q
theorem rhs_0 (i : S5120x16.Idx) (q : dot_S5120x512_S16x512_S5120x16_1_1_0_0_n_n.contr.Idx) :
    (dot_S5120x512_S16x512_S5120x16_1_1_0_0_n_n.rhsIdx i q 0).val = (i 1).val := by
  unfold DotDims.rhsIdx
  rw [dif_neg (show ¬(0 : Fin S16x512.rank) ∈ dot_S5120x512_S16x512_S5120x16_1_1_0_0_n_n.rhsBatch by decide),
    dif_pos (show (0 : Fin S16x512.rank) ∈ dot_S5120x512_S16x512_S5120x16_1_1_0_0_n_n.rhsNonContracting by decide)]
  rfl
theorem rhs_1 (i : S5120x16.Idx) (q : dot_S5120x512_S16x512_S5120x16_1_1_0_0_n_n.contr.Idx) :
    (dot_S5120x512_S16x512_S5120x16_1_1_0_0_n_n.rhsIdx i q 1).val = (q ⟨0, by decide⟩).val :=
  dot_S5120x512_S16x512_S5120x16_1_1_0_0_n_n.rhsIdx_val_of_single rfl i q

/-- Entry `(p, q)` of the stored block is the inner product of row `p` of the mixture block with row `q` of
    the basis. -/
theorem payload_apply (x0 : Vec Ideal S5120x512 .f32) (x1 : Vec Ideal S16x512 .f32) (p : Fin 5120) (q : Fin 16) :
    k0_pay1 (F := Ideal) x0 x1 (ix2 p q) = ∑ e : Fin 512, x0 (ix2 p e) * x1 (ix2 q e) := by
  unfold k0_pay1
  show FloatOps.matmul (F := Ideal) dot_S5120x512_S16x512_S5120x16_1_1_0_0_n_n none
      (truncf (F := Ideal) .bf16 (shapeCast S5120x512 x0 shapeCasts_S5120x512_S5120x512) bitsLt_bf16_f32)
      (truncf (F := Ideal) .bf16 x1 bitsLt_bf16_f32) (constant (F := Ideal) S5120x16 .f32 0x00000000#32) (ix2 p q) = _
  rw [Ideal.matmul_constant_zero_apply,
    ← Equiv.sum_comp (contrEquiv1 dot_S5120x512_S16x512_S5120x16_1_1_0_0_n_n 512 rfl rfl).symm]
  refine Finset.sum_congr rfl fun e _ => ?_
  have he := contrEquiv1_symm_val dot_S5120x512_S16x512_S5120x16_1_1_0_0_n_n 512 rfl rfl e
  have el : dot_S5120x512_S16x512_S5120x16_1_1_0_0_n_n.lhsIdx (ix2 p q) ((contrEquiv1 dot_S5120x512_S16x512_S5120x16_1_1_0_0_n_n 512 rfl rfl).symm e) = ix2 p e :=
    funext fun a => Fin.ext (by
      match a with
      | ⟨0, _⟩ => exact lhs_0 _ _
      | ⟨1, _⟩ => exact (lhs_1 _ _).trans he)
  have er : dot_S5120x512_S16x512_S5120x16_1_1_0_0_n_n.rhsIdx (ix2 p q) ((contrEquiv1 dot_S5120x512_S16x512_S5120x16_1_1_0_0_n_n 512 rfl rfl).symm e) = ix2 q e :=
    funext fun a => Fin.ext (by
      match a with
      | ⟨0, _⟩ => exact rhs_0 _ _
      | ⟨1, _⟩ => exact (rhs_1 _ _).trans he)
  rw [el, er, shapeCast_self]
  rfl

end Cert.KernelIdeal.Body

end
-- ==== Proof.KernelArray.lean ====
/-
  From the grid's blocks to the whole array of projections.  The flattened mixture array has 256000
  rows (one per frame) of 512 features; grid point `t` (of 50) takes rows `5120 t … 5120 t + 5119` and
  the whole basis array, and writes rows `5120 t … 5120 t + 5119` of the 256000 x 16 result.  Every row
  lies in exactly the block of point `row / 5120`, so after the last point the result array holds, at
  `(r, w)`, the inner product of row `r` of the flattened mixture with row `w` of the basis.
-/
import proofs.«120497_j52664888983802_2_alg».proof.Proof.Gen.KernelIdeal.Frame
import proofs.«120497_j52664888983802_2_alg».proof.Proof.KernelMatmul
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Body

open Cert.KernelIdeal Cert.KernelIdeal.Gen

variable (m : (ℓ : Loc nD τ sig) → Buf (Elt Ideal) ℓ)

theorem origin : (![0, 0] : Fin 2 → Nat) = fun _ => 0 := funext fun a => by fin_cases a <;> rfl

/-- Every row of `X` against every row of `Wt`: the inner products over the 512 features. -/
def rowsProj (X : S256000x512.Idx → EReal) (Wt : S16x512.Idx → EReal) : S256000x16.Idx → EReal :=
  fun i => ∑ e : Fin 512, X (ix2 (i 0) e) * Wt (ix2 (i 1) e)

/-- The block indices at point `t`: the mixture's and the result's row blocks are block `t`, the basis is
    always its one block. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry `(p, e)` of the mixture block at point `t` is entry `(5120 t + p, e)` of the flattened mixture. -/
theorem mixture_block_apply (c : Dev nD) (t : Fin cfg0.N) (p : Fin 5120) (e : Fin 512) (r : Fin 256000)
    (hr : r.val = 5120 * t.val + p.val) :
    (iblk m c 0 t : Vec Ideal S5120x512 .f32) (ix2 p e) = (V m c main_v0 : S256000x512.Idx → EReal) (ix2 r e) := by
  obtain ⟨e0, e1, -, -, -, -⟩ := block_index t
  unfold iblk
  rw [View.read_apply]
  show V m c main_v0 _ = V m c main_v0 _
  refine congrArg (V m c main_v0) ?_
  funext a
  apply Fin.ext
  match a with
  | ⟨0, _⟩ => show win0_0.index t (0 : Fin 2) * 5120 + 1 * p.val = r.val; rw [e0, hr]; omega
  | ⟨1, _⟩ => show win0_0.index t (1 : Fin 2) * 512 + 1 * e.val = e.val; rw [e1]; omega

/-- The basis block at every point is the basis array. -/
theorem basis_block_apply (c : Dev nD) (t : Fin cfg0.N) (q : Fin 16) (e : Fin 512) :
    (iblk m c 1 t : Vec Ideal S16x512 .f32) (ix2 q e) = (V m c main_arg1 : S16x512.Idx → EReal) (ix2 q e) := by
  obtain ⟨-, -, e2, e3, -, -⟩ := block_index t
  unfold iblk
  rw [View.read_apply]
  show V m c main_arg1 _ = V m c main_arg1 _
  refine congrArg (V m c main_arg1) ?_
  funext a
  apply Fin.ext
  match a with
  | ⟨0, _⟩ => show win0_1.index t (0 : Fin 2) * 16 + 1 * q.val = q.val; rw [e2]; omega
  | ⟨1, _⟩ => show win0_1.index t (1 : Fin 2) * 512 + 1 * e.val = e.val; rw [e3]; omega

/-- What point `t` writes back is block `t` of `rowsProj` of the flattened mixture and the basis. -/
theorem flushed_eq (c : Dev nD) (t : Fin cfg0.N) :
    (dats m 0 c).flushed 2 t
      = ((cfg0.win 2).blk t).view.read (Elt Ideal) (rowsProj (V m c main_v0) (V m c main_arg1)) := by
  show (cfg0.win 2).cut (grid0.coords t) ((dats m 0 c).after 2 t) = _
  rw [after0_2]
  unfold out0_2
  rw [View.canon_unit_zero origin]
  simp only [View.ld_unit_zero (S := S5120x512) origin, View.ld_unit_zero (S := S16x512) origin]
  obtain ⟨-, -, -, -, e4, e5⟩ := block_index t
  have ht : t.val < 50 := Nat.lt_of_lt_of_eq t.isLt N_0
  refine funext fun (j : S5120x16.Idx) => ?_
  obtain ⟨p, q, rfl⟩ : ∃ (p : Fin 5120) (q : Fin 16), j = ix2 p q := ⟨j 0, j 1, eq_ix2 j⟩
  show k0_pay1 (iblk m c 0 t) (iblk m c 1 t) (ix2 p q)
    = rowsProj (V m c main_v0) (V m c main_arg1) (((cfg0.win 2).blk t).view.emb (ix2 p q))
  refine (payload_apply (iblk m c 0 t) (iblk m c 1 t) p q).trans ?_
  unfold rowsProj
  refine Finset.sum_congr rfl fun e _ => ?_
  rw [mixture_block_apply m c t p e ⟨5120 * t.val + p.val, by have := p.isLt; omega⟩ rfl, basis_block_apply m c t q e]
  have hrow : (⟨5120 * t.val + p.val, by have := p.isLt; omega⟩ : Fin 256000)
      = ((cfg0.win 2).blk t).view.emb (ix2 p q) 0 := by
    apply Fin.ext
    show 5120 * t.val + p.val = win0_2.index t (0 : Fin 2) * 5120 + 1 * p.val
    rw [e4]; omega
  have hcol : q = ((cfg0.win 2).blk t).view.emb (ix2 p q) 1 := by
    apply Fin.ext
    show q.val = win0_2.index t (1 : Fin 2) * 16 + 1 * q.val
    rw [e5]; omega
  rw [← hrow, ← hcol]

/-- An index of the result array is in point `t`'s block iff each coordinate is in the block's range. -/
theorem mem_blk (t : Fin cfg0.N) (i : S256000x16.Idx) :
    i ∈ ((cfg0.win 2).blk t).view.set ↔ ∀ a : Fin 2, win0_2.index t a * S5120x16.size a ≤ (i a).val
      ∧ (i a).val < win0_2.index t a * S5120x16.size a + S5120x16.size a := by
  show i ∈ ((View.whole main_v1).slice (win0_2.rect t)).set ↔ _
  rw [View.set_slice_whole, Rect.mem_set_unit]
  exact Iff.rfl

/-- Row `r` is written by point `r / 5120`. -/
theorem cover (i : S256000x16.Idx) :
    ∃ t : Fin cfg0.N, (cfg0.win 2).flush t = true ∧ i ∈ ((cfg0.win 2).blk t).view.set := by
  have hi0 : (i 0).val < 256000 := (i 0).isLt
  have hi1 : (i 1).val < 16 := (i 1).isLt
  have hN : cfg0.N = 50 := N_0
  obtain ⟨t, htv⟩ : ∃ t : Fin cfg0.N, t.val = (i 0).val / 5120 := ⟨⟨(i 0).val / 5120, Nat.lt_of_lt_of_eq (show (i 0).val / 5120 < 50 by omega) hN.symm⟩, rfl⟩
  obtain ⟨-, -, -, -, e4, e5⟩ := block_index t
  refine ⟨t, flush0_2 t, ?_⟩
  rw [mem_blk]
  intro a
  match a with
  | ⟨0, _⟩ =>
    show win0_2.index t (0 : Fin 2) * 5120 ≤ (i 0).val ∧ (i 0).val < win0_2.index t (0 : Fin 2) * 5120 + 5120
    rw [e4, htv]; omega
  | ⟨1, _⟩ =>
    show win0_2.index t (1 : Fin 2) * 16 ≤ (i 1).val ∧ (i 1).val < win0_2.index t (1 : Fin 2) * 16 + 16
    rw [e5]; omega

/-- The result array after the last point. -/
theorem final (c : Dev nD) :
    (dats m 0 c).arrAt 2 cfg0.N = rowsProj (V m c main_v0) (V m c main_arg1) :=
  (dats m 0 c).arrAt_eq_of_cover 2 _ (fun t _ => flushed_eq m c t) cover

end Cert.KernelIdeal.Body

end
-- ==== Proof.Spec.lean ====
/-
  What both programs compute, as one function of the two argument arrays.

  The mixture array `x` has shape [8, 2, 16000, 512] (batch, channel, frame, feature) and the basis
  array `wt` has shape [16, 512] (tap, feature).  Frame `k` of a (batch, channel) pair is projected on
  the sixteen taps: `proj x wt b c k w = ∑ e, x[b, c, k, e] * wt[w, e]`.  The sixteen projections of a
  frame are two half-frames of eight samples; consecutive frames overlap by one half-frame, and the
  signal is their overlap-add: output half-frame `j` (of 16001) is the first half of frame `j` (when
  `j < 16000`) plus the second half of frame `j - 1` (when `0 < j`); a missing summand is zero.
  Sample `p` of the output row of 128008 samples is sample `p % 8` of half-frame `p / 8`.
-/
import Idealize.ShloMosaic.Lib.ValueIdx
import Idealize.ShloMosaic.PureOps.Ideal

noncomputable section

namespace Cert.Proof.Spec

open Idealize.ShloMosaic Idealize.ShloMosaic.ValueIdx

/-- The mixture array's shape, the basis array's, the projections', the output's. -/
abbrev SX : Shape := ⟨4, ![8, 2, 16000, 512]⟩
abbrev SW : Shape := ⟨2, ![16, 512]⟩
abbrev SE : Shape := ⟨4, ![8, 2, 16000, 16]⟩
abbrev SO : Shape := ⟨3, ![8, 2, 128008]⟩

/-- The projection of frame `k` of pair `(b, c)` on tap `w`: the inner product over the 512 features.
    Stated over natural-number coordinates, zero outside the array, so that coordinates computed by
    division and remainder can be compared by arithmetic. -/
def proj (x : SX.Idx → EReal) (wt : SW.Idx → EReal) (b c k w : Nat) : EReal :=
  if h : b < 8 ∧ c < 2 ∧ k < 16000 ∧ w < 16 then
    ∑ e : Fin 512, x (ix4 ⟨b, h.1⟩ ⟨c, h.2.1⟩ ⟨k, h.2.2.1⟩ e) * wt (ix2 ⟨w, h.2.2.2⟩ e)
  else 0

/-- Inside the array the projection is the inner product. -/
theorem proj_at (x : SX.Idx → EReal) (wt : SW.Idx → EReal) (b : Fin 8) (c : Fin 2) (k : Fin 16000) (w : Fin 16) :
    proj x wt b.val c.val k.val w.val = ∑ e : Fin 512, x (ix4 b c k e) * wt (ix2 w e) := by
  unfold proj
  rw [dif_pos ⟨b.isLt, c.isLt, k.isLt, w.isLt⟩]

/-- Equal coordinates, equal projections. -/
theorem proj_congr (x : SX.Idx → EReal) (wt : SW.Idx → EReal) {b c k w b' c' k' w' : Nat}
    (hb : b = b') (hc : c = c') (hk : k = k') (hw : w = w') : proj x wt b c k w = proj x wt b' c' k' w' := by
  subst hb hc hk hw; rfl

/-- All projections, as an array of shape [8, 2, 16000, 16]. -/
def projArr (x : SX.Idx → EReal) (wt : SW.Idx → EReal) : SE.Idx → EReal :=
  fun q => proj x wt (q 0).val (q 1).val (q 2).val (q 3).val

/-- The overlap-add of the projected frames: sample `p` of row `(b, c)`. -/
def overlapAdd (x : SX.Idx → EReal) (wt : SW.Idx → EReal) : SO.Idx → EReal := fun i =>
  (if (i 2).val / 8 < 16000 then proj x wt (i 0).val (i 1).val ((i 2).val / 8) ((i 2).val % 8) else 0)
    + (if 0 < (i 2).val / 8 then proj x wt (i 0).val (i 1).val ((i 2).val / 8 - 1) (8 + (i 2).val % 8) else 0)

end Cert.Proof.Spec

end
-- ==== Proof.KernelValue.lean ====
/-
  The kernel's result is the overlap-add.  Around the grid the program flattens the mixture array to
  256000 rows (row `(2 b + c) * 16000 + k` is frame `k` of pair `(b, c)`), and after it views the
  256000 x 16 projections as [8, 2, 16000, 16], takes the two halves of every frame (taps 0-7 and
  8-15), appends a zero half-frame after the first halves and puts one before the second halves, adds
  the two [8, 2, 16001, 8] arrays, and views the sum as [8, 2, 128008].  Read at sample `p` of row
  `(b, c)`, with `j = p / 8` and `l = p % 8`: the first summand is tap `l` of frame `j` when `j < 16000` and
  zero at `j = 16000`; the second is tap `8 + l` of frame `j - 1` when `0 < j` and zero at `j = 0`.
-/
import proofs.«120497_j52664888983802_2_alg».proof.Proof.KernelArray
import proofs.«120497_j52664888983802_2_alg».proof.Proof.Spec
import Idealize.ShloMosaic.Lib.StableHlo.Run

noncomputable section

open Idealize.ShloMosaic Idealize.ShloMosaic.TcCoe Idealize.SL.Sem Idealize.ShloMosaic.ValueIdx
open Idealize.ShloMosaic.StableHlo
open Idealize.ShloMosaic.Pipeline (Dat)

namespace Cert.KernelIdeal.Body

open Cert.KernelIdeal Cert.KernelIdeal.Gen Cert.Proof.Spec

variable (m : (ℓ : Loc nD τ sig) → Buf (Elt Ideal) ℓ)

/-- The zero half-frame. -/
abbrev zeroHalf : S8x2x1x8.Idx → EReal :=
  broadcastInDim S8x2x1x8 ![] bcast_S_S8x2x1x8 (constant (F := Ideal) S_ .f32 0x00000000#32)

theorem zeroHalf_apply (k : S8x2x1x8.Idx) : zeroHalf k = 0 := by
  refine (broadcastInDim_apply _ bcast_S_S8x2x1x8 _ k ix0 (fun a => a.elim0)).trans ?_
  exact Ideal.ofBits_zero_f32

/-- The projections viewed frame by frame. -/
abbrev frames (y : S256000x16.Idx → EReal) : S8x2x16000x16.Idx → EReal :=
  shapeCast S8x2x16000x16 y shapeCasts_S256000x16_S8x2x16000x16

/-- The host operations after the grid, as one function of the array of projections. -/
def tail (y : S256000x16.Idx → EReal) : S8x2x128008.Idx → EReal :=
  shapeCast S8x2x128008
    (addf (F := Ideal) (φ := .f32)
      (concatenate (α := Ideal .f32) S8x2x16001x8 2
        [⟨S8x2x16000x8, extractStridedSlice S8x2x16000x8 ![0, 0, 0, 0] (frames y) slices_S8x2x16000x16_S8x2x16000x8_0_0_0_0⟩,
          ⟨S8x2x1x8, zeroHalf⟩]
        concatenates_S8x2x16000x8_S8x2x1x8_S8x2x16001x8_d2)
      (concatenate (α := Ideal .f32) S8x2x16001x8 2
        [⟨S8x2x1x8, zeroHalf⟩,
          ⟨S8x2x16000x8, extractStridedSlice S8x2x16000x8 ![0, 0, 0, 8] (frames y) slices_S8x2x16000x16_S8x2x16000x8_0_0_0_8⟩]
        concatenates_S8x2x1x8_S8x2x16000x8_S8x2x16001x8_d2))
    shapeCasts_S8x2x16001x8_S8x2x128008

/-- Entry `(r, w)` of an array of 256000 rows of 16, over natural-number coordinates, zero outside. -/
def rowAt (y : S256000x16.Idx → EReal) (r w : Nat) : EReal :=
  if h : r < 256000 ∧ w < 16 then y (ix2 ⟨r, h.1⟩ ⟨w, h.2⟩) else 0

/-- Tap `w` of frame `k` of pair `(b, c)` is entry `((2 b + c) * 16000 + k, w)` of the projections. -/
theorem frames_apply (y : S256000x16.Idx → EReal) (b : Fin 8) (c : Fin 2) (k : Fin 16000) (w : Fin 16) :
    frames y (ix4 b c k w) = rowAt y ((b.val * 2 + c.val) * 16000 + k.val) w.val := by
  have hb := b.isLt
  have hc := c.isLt
  have hk := k.isLt
  have hr : (b.val * 2 + c.val) * 16000 + k.val < 256000 := by omega
  unfold rowAt
  rw [dif_pos ⟨hr, w.isLt⟩]
  refine shapeCast_apply y shapeCasts_S256000x16_S8x2x16000x16 (ix4 b c k w) (ix2 ⟨_, hr⟩ w) ?_
  rewrite [Shape.rowMajor_val_two, Shape.rowMajor_val_four]
  rfl

/-- The first halves followed by the zero half-frame, at half-frame `j`. -/
theorem firstPadded_apply (y : S256000x16.Idx → EReal) (b : Fin 8) (c : Fin 2) (j : Fin 16001) (l : Fin 8) :
    concatenate S8x2x16001x8 2
        [⟨S8x2x16000x8, extractStridedSlice S8x2x16000x8 ![0, 0, 0, 0] (frames y) slices_S8x2x16000x16_S8x2x16000x8_0_0_0_0⟩,
          ⟨S8x2x1x8, zeroHalf⟩]
        concatenates_S8x2x16000x8_S8x2x1x8_S8x2x16001x8_d2 (ix4 b c j l)
      = if j.val < 16000 then rowAt y ((b.val * 2 + c.val) * 16000 + j.val) l.val else 0 := by
  have hj := j.isLt
  have hl := l.isLt
  by_cases h : j.val < 16000
  · rw [if_pos h]
    refine (concatenate_pair_apply_left (2 : Fin S8x2x16001x8.rank) _ _ concatenates_S8x2x16000x8_S8x2x1x8_S8x2x16001x8_d2
      (ix4 b c j l) rfl (ix4 b c (⟨j.val, h⟩ : Fin 16000) l) (fun a => by
        match a with
        | ⟨0, _⟩ => rfl
        | ⟨1, _⟩ => rfl
        | ⟨2, _⟩ => rfl
        | ⟨3, _⟩ => rfl)).trans ?_
    refine (extractStridedSlice_apply _ (frames y) slices_S8x2x16000x16_S8x2x16000x8_0_0_0_0
      (ix4 b c (⟨j.val, h⟩ : Fin 16000) l) (ix4 b c (⟨j.val, h⟩ : Fin 16000) (⟨l.val, by omega⟩ : Fin 16)) (fun a => by
        match a with
        | ⟨0, _⟩ => exact (Nat.zero_add _).symm
        | ⟨1, _⟩ => exact (Nat.zero_add _).symm
        | ⟨2, _⟩ => exact (Nat.zero_add _).symm
        | ⟨3, _⟩ => exact (Nat.zero_add _).symm)).trans ?_
    exact frames_apply y b c ⟨j.val, h⟩ ⟨l.val, by omega⟩
  · rw [if_neg h]
    refine (concatenate_pair_apply_right (2 : Fin S8x2x16001x8.rank) _ _ concatenates_S8x2x16000x8_S8x2x1x8_S8x2x16001x8_d2
      (ix4 b c j l) rfl rfl (ix4 b c (0 : Fin 1) l) (fun a ha => by
        match a with
        | ⟨0, _⟩ => rfl
        | ⟨1, _⟩ => rfl
        | ⟨2, _⟩ => exact absurd rfl ha
        | ⟨3, _⟩ => rfl) (by show 0 + 16000 = j.val; omega)).trans ?_
    exact zeroHalf_apply _

/-- The zero half-frame followed by the second halves, at half-frame `j`. -/
theorem secondPadded_apply (y : S256000x16.Idx → EReal) (b : Fin 8) (c : Fin 2) (j : Fin 16001) (l : Fin 8) :
    concatenate S8x2x16001x8 2
        [⟨S8x2x1x8, zeroHalf⟩,
          ⟨S8x2x16000x8, extractStridedSlice S8x2x16000x8 ![0, 0, 0, 8] (frames y) slices_S8x2x16000x16_S8x2x16000x8_0_0_0_8⟩]
        concatenates_S8x2x1x8_S8x2x16000x8_S8x2x16001x8_d2 (ix4 b c j l)
      = if 0 < j.val then rowAt y ((b.val * 2 + c.val) * 16000 + j.val - 1) (8 + l.val) else 0 := by
  have hj := j.isLt
  have hl := l.isLt
  have hb := b.isLt
  have hc := c.isLt
  by_cases h : 0 < j.val
  · rw [if_pos h]
    refine (concatenate_pair_apply_right (2 : Fin S8x2x16001x8.rank) _ _ concatenates_S8x2x1x8_S8x2x16000x8_S8x2x16001x8_d2
      (ix4 b c j l) rfl rfl (ix4 b c (⟨j.val - 1, by omega⟩ : Fin 16000) l) (fun a ha => by
        match a with
        | ⟨0, _⟩ => rfl
        | ⟨1, _⟩ => rfl
        | ⟨2, _⟩ => exact absurd rfl ha
        | ⟨3, _⟩ => rfl) (by show j.val - 1 + 1 = j.val; omega)).trans ?_
    refine (extractStridedSlice_apply _ (frames y) slices_S8x2x16000x16_S8x2x16000x8_0_0_0_8
      (ix4 b c (⟨j.val - 1, by omega⟩ : Fin 16000) l)
      (ix4 b c (⟨j.val - 1, by omega⟩ : Fin 16000) (⟨8 + l.val, by omega⟩ : Fin 16)) (fun a => by
        match a with
        | ⟨0, _⟩ => exact (Nat.zero_add _).symm
        | ⟨1, _⟩ => exact (Nat.zero_add _).symm
        | ⟨2, _⟩ => exact (Nat.zero_add _).symm
        | ⟨3, _⟩ => rfl)).trans ?_
    refine (frames_apply y b c ⟨j.val - 1, by omega⟩ ⟨8 + l.val, by omega⟩).trans ?_
    show rowAt y ((b.val * 2 + c.val) * 16000 + (j.val - 1)) (8 + l.val) = _
    rw [show (b.val * 2 + c.val) * 16000 + (j.val - 1) = (b.val * 2 + c.val) * 16000 + j.val - 1 by omega]
  · rw [if_neg h]
    refine (concatenate_pair_apply_left (2 : Fin S8x2x16001x8.rank) _ _ concatenates_S8x2x1x8_S8x2x16000x8_S8x2x16001x8_d2
      (ix4 b c j l) rfl (ix4 b c (0 : Fin 1) l) (fun a => by
        match a with
        | ⟨0, _⟩ => rfl
        | ⟨1, _⟩ => rfl
        | ⟨2, _⟩ => show 0 = j.val; omega
        | ⟨3, _⟩ => rfl)).trans ?_
    exact zeroHalf_apply _

/-- The tail at sample `p` of row `(b, c)`. -/
theorem tail_apply (y : S256000x16.Idx → EReal) (i : S8x2x128008.Idx) :
    tail y i
      = (if (i 2).val / 8 < 16000 then rowAt y (((i 0).val * 2 + (i 1).val) * 16000 + (i 2).val / 8) ((i 2).val % 8) else 0)
        + (if 0 < (i 2).val / 8 then rowAt y (((i 0).val * 2 + (i 1).val) * 16000 + (i 2).val / 8 - 1) (8 + (i 2).val % 8) else 0) := by
  have h0 : (i 0).val < 8 := (i 0).isLt
  have h1 : (i 1).val < 2 := (i 1).isLt
  have h2 : (i 2).val < 128008 := (i 2).isLt
  unfold tail
  refine (shapeCast_apply _ shapeCasts_S8x2x16001x8_S8x2x128008 i
    (ix4 (⟨(i 0).val, h0⟩ : Fin 8) (⟨(i 1).val, h1⟩ : Fin 2) (⟨(i 2).val / 8, by omega⟩ : Fin 16001) (⟨(i 2).val % 8, by omega⟩ : Fin 8)) (by
      rewrite [Shape.rowMajor_val_four, Shape.rowMajor_val_three]
      show (((i 0).val * 2 + (i 1).val) * 16001 + (i 2).val / 8) * 8 + (i 2).val % 8
        = ((i 0).val * 2 + (i 1).val) * 128008 + (i 2).val
      omega)).trans ?_
  refine (addf_apply _ _ _).trans ?_
  rw [firstPadded_apply, secondPadded_apply]

/-- The flattened mixture array is the mixture array viewed as 256000 rows. -/
theorem mixture_flat (c : Dev nD) :
    (V m c main_v0 : S256000x512.Idx → EReal)
      = shapeCast S256000x512 (m ((c : Thread nD τ).loc main_arg0)) shapeCasts_S8x2x16000x512_S256000x512 := by
  show StableHlo.after hostOps0 (fun b => m (c, b)) (Proc.devRef .tc main_v0) = _
  after_results
  rfl

/-- Row `r` of the projections is frame `r % 16000` of pair `(r / 32000, r / 16000 % 2)`. -/
theorem rows_are_frames (c : Dev nD) (r w : Nat) (hr : r < 256000) (hw : w < 16) :
    rowAt (rowsProj (V m c main_v0) (V m c main_arg1)) r w
      = proj (m ((c : Thread nD τ).loc main_arg0)) (m ((c : Thread nD τ).loc main_arg1))
          (r / 32000) (r / 16000 % 2) (r % 16000) w := by
  unfold rowAt
  rw [dif_pos ⟨hr, hw⟩, mixture_flat m c, V_main_arg1 m c]
  refine Eq.trans ?_ (proj_at _ _ (⟨r / 32000, by omega⟩ : Fin 8) (⟨r / 16000 % 2, by omega⟩ : Fin 2)
    (⟨r % 16000, by omega⟩ : Fin 16000) (⟨w, hw⟩ : Fin 16)).symm
  unfold rowsProj
  refine Finset.sum_congr rfl fun e _ => ?_
  refine congrArg (· * _) ?_
  refine shapeCast_apply _ shapeCasts_S8x2x16000x512_S256000x512 (ix2 (⟨r, hr⟩ : Fin 256000) e)
    (ix4 (⟨r / 32000, by omega⟩ : Fin 8) (⟨r / 16000 % 2, by omega⟩ : Fin 2) (⟨r % 16000, by omega⟩ : Fin 16000) e) ?_
  rewrite [Shape.rowMajor_val_four, Shape.rowMajor_val_two]
  show ((r / 32000 * 2 + r / 16000 % 2) * 16000 + r % 16000) * 512 + e.val = r * 512 + e.val
  omega

/-- What the program's result buffer holds after the run, as the tail of the array of projections. -/
theorem result_eq_tail (c : Dev nD) :
    Pipeline.afterTail₀ cfgs (dats m) 0 (V0 m) [hostOps1] c main_v9
      = tail (rowsProj (V m c main_v0) (V m c main_arg1)) := by
  have hw : Pipeline.withArrays (cfgs 0).spec c (V0 m c) (fun w => (dats m 0 c).arrAt w (cfgs 0).N)
      (Proc.tc.devRef main_v1) = rowsProj (V m c main_v0) (V m c main_arg1) :=
    (Pipeline.withArrays_arr spec0 launch0.win.arr_inj c _ _ 2).trans (final m c)
  unfold Pipeline.afterTail₀
  show StableHlo.after hostOps1 _ (Proc.devRef .tc main_v9) = _
  after_results
  rw [hw]
  rfl

/-- The kernel's result is the overlap-add of the projected frames. -/
theorem result_eq (c : Dev nD) :
    Pipeline.afterTail₀ cfgs (dats m) 0 (V0 m) [hostOps1] c main_v9
      = overlapAdd (m ((c : Thread nD τ).loc main_arg0)) (m ((c : Thread nD τ).loc main_arg1)) := by
  refine (result_eq_tail m c).trans ?_
  funext i
  have h0 : (i 0).val < 8 := (i 0).isLt
  have h1 : (i 1).val < 2 := (i 1).isLt
  have h2 : (i 2).val < 128008 := (i 2).isLt
  refine (tail_apply _ i).trans ?_
  unfold overlapAdd
  congr 1
  · by_cases h : (i 2).val / 8 < 16000
    · rw [if_pos h, if_pos h, rows_are_frames m c _ _ (by omega) (by omega)]
      refine proj_congr _ _ ?_ ?_ ?_ ?_ <;> omega
    · rw [if_neg h, if_neg h]
  · by_cases h : 0 < (i 2).val / 8
    · rw [if_pos h, if_pos h, rows_are_frames m c _ _ (by omega) (by omega)]
      refine proj_congr _ _ ?_ ?_ ?_ ?_ <;> omega
    · rw [if_neg h, if_neg h]

/-- The kernel's run, read: the result buffer at the overlap-add of the arguments, the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v9)
          = overlapAdd (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1) :=
  (θ_run defs _ _).mono (fun _ h c =>
    ⟨((h c).2 main_v9 (Pipeline.mem_restRefs_of main_v9 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩)
    (run_main m ρ)

end Cert.KernelIdeal.Body

end
-- ==== Proof.LibMidScatter.lean ====
/-
  An accumulating scatter along the MIDDLE axis of a rank-3 array, read at an entry, at the ideal
  values and at arbitrary sizes.

  The operand has shape [A, N, L], the updates [A, M, L], and the scatter indices are a column
  [M, 1]: update row `n` (all of `updates[:, n, :]`) is added into operand row `indices[n, 0]` of the
  middle axis, the outer coordinates `a` and `l` carried over unchanged (update window axes 0 and 2,
  inserted window axis 1, the index vector's one component naming operand axis 1).  An index read
  signed that falls outside `0 … N - 1` drops its row.  So entry `(a, j, l)` of the result is the
  operand's entry plus the sum of `updates[a, n, l]` over the rows `n` whose index is `j`.
-/
import Idealize.ShloMosaic.Lib.ValueIdx
import Idealize.ShloMosaic.PureOps.Ideal.Laws

noncomputable section

namespace Cert.Proof.LibMidScatter

open Idealize.ShloMosaic Idealize.ShloMosaic.ValueIdx

variable {A N L M : Nat}

/-- The dimension numbers of the scatter along the middle axis by a column of indices. -/
abbrev midDims (wf : ScatterDims.WF ⟨3, ![A, N, L]⟩ ⟨2, ![M, 1]⟩ ⟨3, ![A, M, L]⟩ [0, 2] [1] [1] 1) :
    ScatterDims ⟨3, ![A, N, L]⟩ ⟨2, ![M, 1]⟩ ⟨3, ![A, M, L]⟩ where
  updateWindowDims := [0, 2]
  insertedWindowDims := [1]
  scatterDimsToOperandDims := [1]
  indexVectorDim := 1
  wf := wf

variable (wf : ScatterDims.WF ⟨3, ![A, N, L]⟩ ⟨2, ![M, 1]⟩ ⟨3, ![A, M, L]⟩ [0, 2] [1] [1] 1)

/-- The operand's axes that carry a window coordinate are the outer two. -/
theorem sKept_eq : (midDims wf).sKept = [0, 2] := rfl
theorem sdto_eq : (midDims wf).scatterDimsToOperandDims = [1] := rfl

/-- The window coordinate of update index `u` on each operand axis: `u`'s own outer coordinates, nothing
    on the scattered axis. -/
theorem window0 (u : (⟨3, ![A, M, L]⟩ : Shape).Idx) : (midDims wf).window u 0 = (u 0).val := by
  unfold ScatterDims.window
  rw [dif_pos (show (0 : Fin 3) ∈ (midDims wf).sKept by rw [sKept_eq]; simp)]
  rfl

theorem window1 (u : (⟨3, ![A, M, L]⟩ : Shape).Idx) : (midDims wf).window u 1 = 0 := by
  unfold ScatterDims.window
  rw [dif_neg (show ¬ (1 : Fin 3) ∈ (midDims wf).sKept by rw [sKept_eq]; simp)]

theorem window2 (u : (⟨3, ![A, M, L]⟩ : Shape).Idx) : (midDims wf).window u 2 = (u 2).val := by
  unfold ScatterDims.window
  rw [dif_pos (show (2 : Fin 3) ∈ (midDims wf).sKept by rw [sKept_eq]; simp)]
  rfl

/-- The window's start on each operand axis: zero on the outer two, the signed index of the update's row
    on the scattered one. -/
theorem start0 {w : Nat} (u : (⟨3, ![A, M, L]⟩ : Shape).Idx) (idx : IVec ⟨2, ![M, 1]⟩ w) :
    (midDims wf).start u idx 0 = 0 := by
  unfold ScatterDims.start
  rw [dif_neg (show ¬ (0 : Fin 3) ∈ (midDims wf).scatterDimsToOperandDims by rw [sdto_eq]; simp)]

theorem start2 {w : Nat} (u : (⟨3, ![A, M, L]⟩ : Shape).Idx) (idx : IVec ⟨2, ![M, 1]⟩ w) :
    (midDims wf).start u idx 2 = 0 := by
  unfold ScatterDims.start
  rw [dif_neg (show ¬ (2 : Fin 3) ∈ (midDims wf).scatterDimsToOperandDims by rw [sdto_eq]; simp)]

theorem start1 {w : Nat} (u : (⟨3, ![A, M, L]⟩ : Shape).Idx) (idx : IVec ⟨2, ![M, 1]⟩ w) :
    (midDims wf).start u idx 1 = (idx (ix2 (u 1) (0 : Fin 1))).toInt := by
  unfold ScatterDims.start
  rw [dif_pos (show (1 : Fin 3) ∈ (midDims wf).scatterDimsToOperandDims by rw [sdto_eq]; simp)]
  congr 2
  funext b
  match b with
  | ⟨0, _⟩ => rfl
  | ⟨1, _⟩ => rfl

/-- Update index `u` lands on operand index `i` exactly when the outer coordinates agree and the signed
    index of `u`'s row is `i`'s middle coordinate. -/
theorem resultIdx_mid {w : Nat} (u : (⟨3, ![A, M, L]⟩ : Shape).Idx) (idx : IVec ⟨2, ![M, 1]⟩ w)
    (i : (⟨3, ![A, N, L]⟩ : Shape).Idx) :
    (midDims wf).resultIdx? u idx = some i ↔
      (u 0).val = (i 0).val ∧ (idx (ix2 (u 1) (0 : Fin 1))).toInt = ((i 1).val : Int) ∧ (u 2).val = (i 2).val := by
  have e0 : (midDims wf).start u idx 0 + (midDims wf).window u 0 = ((u 0).val : Int) := by
    rw [start0, window0, zero_add]
  have e1 : (midDims wf).start u idx 1 + (midDims wf).window u 1 = (idx (ix2 (u 1) (0 : Fin 1))).toInt := by
    rw [start1, window1]; simp
  have e2 : (midDims wf).start u idx 2 + (midDims wf).window u 2 = ((u 2).val : Int) := by
    rw [start2, window2, zero_add]
  have hi0 : (i 0).val < A := (i 0).isLt
  have hi1 : (i 1).val < N := (i 1).isLt
  have hi2 : (i 2).val < L := (i 2).isLt
  unfold ScatterDims.resultIdx?
  split
  · rename_i h
    rw [Option.some.injEq]
    constructor
    · intro hf
      have h0 : ((midDims wf).start u idx 0 + (midDims wf).window u 0).toNat = (i 0).val :=
        congrArg (fun f => (f 0).val) hf
      have h1 : ((midDims wf).start u idx 1 + (midDims wf).window u 1).toNat = (i 1).val :=
        congrArg (fun f => (f 1).val) hf
      have h2 : ((midDims wf).start u idx 2 + (midDims wf).window u 2).toNat = (i 2).val :=
        congrArg (fun f => (f 2).val) hf
      have b1 := (h 1).1
      rw [e0] at h0; rw [e1] at h1 b1; rw [e2] at h2
      refine ⟨?_, ?_, ?_⟩ <;> omega
    · rintro ⟨h0, h1, h2⟩
      funext a
      apply Fin.ext
      match a with
      | ⟨0, _⟩ =>
        show ((midDims wf).start u idx 0 + (midDims wf).window u 0).toNat = (i 0).val
        rw [e0]; omega
      | ⟨1, _⟩ =>
        show ((midDims wf).start u idx 1 + (midDims wf).window u 1).toNat = (i 1).val
        rw [e1]; omega
      | ⟨2, _⟩ =>
        show ((midDims wf).start u idx 2 + (midDims wf).window u 2).toNat = (i 2).val
        rw [e2]; omega
  · rename_i h
    constructor
    · intro hf; cases hf
    · rintro ⟨h0, h1, h2⟩
      exfalso
      apply h
      intro a
      match a with
      | ⟨0, _⟩ =>
        show 0 ≤ (midDims wf).start u idx 0 + (midDims wf).window u 0
          ∧ (midDims wf).start u idx 0 + (midDims wf).window u 0 < (A : Int)
        rw [e0]; omega
      | ⟨1, _⟩ =>
        show 0 ≤ (midDims wf).start u idx 1 + (midDims wf).window u 1
          ∧ (midDims wf).start u idx 1 + (midDims wf).window u 1 < (N : Int)
        rw [e1]; omega
      | ⟨2, _⟩ =>
        show 0 ≤ (midDims wf).start u idx 2 + (midDims wf).window u 2
          ∧ (midDims wf).start u idx 2 + (midDims wf).window u 2 < (L : Int)
        rw [e2]; omega

/-- At the ideal values the accumulating scatter along the middle axis, read at entry `i = (a, j, l)`: the
    operand's entry plus the sum of `upd (a, n, l)` over the update rows `n` whose signed index is `j`. -/
theorem scatterAdd_mid_apply {w : Nat} (x : FVec Ideal ⟨3, ![A, N, L]⟩ .f32) (idx : IVec ⟨2, ![M, 1]⟩ w)
    (upd : FVec Ideal ⟨3, ![A, M, L]⟩ .f32) (i : (⟨3, ![A, N, L]⟩ : Shape).Idx) :
    Host.scatterAdd (F := Ideal) (midDims wf) x idx upd i
      = x i + ∑ n ∈ Finset.univ.filter (fun n : Fin M => (idx (ix2 n (0 : Fin 1))).toInt = ((i 1).val : Int)),
          upd (ix3 (i 0) n (i 2)) := by
  show x i + ∑ u ∈ Finset.univ.filter (fun u => (midDims wf).resultIdx? u idx = some i), upd u = _
  congr 1
  refine Finset.sum_bij' (fun u _ => (u 1 : Fin M)) (fun n _ => ix3 (i 0) n (i 2)) ?_ ?_ ?_ ?_ ?_
  · intro u hu
    exact Finset.mem_filter.2 ⟨Finset.mem_univ _, ((resultIdx_mid wf u idx i).1 (Finset.mem_filter.1 hu).2).2.1⟩
  · intro n hn
    exact Finset.mem_filter.2 ⟨Finset.mem_univ _, (resultIdx_mid wf _ idx i).2 ⟨rfl, (Finset.mem_filter.1 hn).2, rfl⟩⟩
  · intro u hu
    obtain ⟨h0, -, h2⟩ := (resultIdx_mid wf u idx i).1 (Finset.mem_filter.1 hu).2
    funext a
    match a with
    | ⟨0, _⟩ => exact Fin.ext h0.symm
    | ⟨1, _⟩ => rfl
    | ⟨2, _⟩ => exact Fin.ext h2.symm
  · intro n _
    rfl
  · intro u hu
    obtain ⟨h0, -, h2⟩ := (resultIdx_mid wf u idx i).1 (Finset.mem_filter.1 hu).2
    congr 1
    funext a
    match a with
    | ⟨0, _⟩ => exact Fin.ext h0
    | ⟨1, _⟩ => rfl
    | ⟨2, _⟩ => exact Fin.ext h2

end Cert.Proof.LibMidScatter

end
-- ==== Proof.RefIndexVector.lean ====
/-
  The reference's scatter indices.  Half-frame `s` (0 or 1) of frame `k` is row `n = 2 k + s` of the
  32000 update rows, and it is added into output half-frame `k + s`: the index column holds
  `n / 2 + n % 2` at row `n`.  The program computes it as `iota(16000) * 1 + iota(2)` reshaped, followed
  by the wrap of negative indices (`n < 0 ? n + 16001 : n`), which never applies.
-/
import proofs.«120497_j52664888983802_2_alg».proof.Proof.Gen.ReferenceIdeal.Read

noncomputable section

namespace Cert.ReferenceIdeal.IndexVector

open Cert.ReferenceIdeal Cert.ReferenceIdeal.Gen Cert.ReferenceIdeal.Read Idealize.ShloMosaic

variable {F : FTy → Type} [FloatOps F]

/-- A natural number below 2^31, as a 32-bit word, reads back signed as itself. -/
theorem toInt_ofNat_small (n : Nat) (h : n < 2147483648) : (BitVec.ofNat 32 n).toInt = (n : Int) := by
  have ht : (BitVec.ofNat 32 n).toNat = n := by
    rw [BitVec.toNat_ofNat]; exact Nat.mod_eq_of_lt (by omega)
  rw [BitVec.toInt_eq_toNat_of_lt (by rw [ht]; omega), ht]

/-- The word arithmetic of one index: `k * 1 + s` is the word of `k + s`, it is not negative, so the wrap
    keeps it. -/
theorem index_word (k s : Nat) (hk : k < 16000) (hs : s < 2) :
    Scalar.select (IntOp.cmpi .slt (IntOp.addi (IntOp.muli (BitVec.ofNat 32 k) 1#32) (BitVec.ofNat 32 s)) 0#32)
        (IntOp.addi (IntOp.addi (IntOp.muli (BitVec.ofNat 32 k) 1#32) (BitVec.ofNat 32 s)) 16001#32)
        (IntOp.addi (IntOp.muli (BitVec.ofNat 32 k) 1#32) (BitVec.ofNat 32 s))
      = BitVec.ofNat 32 (k + s) := by
  have hv : IntOp.addi (IntOp.muli (BitVec.ofNat 32 k) 1#32) (BitVec.ofNat 32 s) = BitVec.ofNat 32 (k + s) := by
    unfold IntOp.addi IntOp.muli
    rw [BitVec.mul_one, ← BitVec.ofNat_add]
  rw [hv]
  have hc : IntOp.cmpi .slt (BitVec.ofNat 32 (k + s)) 0#32 = 0#1 := by
    unfold IntOp.cmpi
    show BitVec.ofBool ((BitVec.ofNat 32 (k + s)).slt 0#32) = 0#1
    rw [BitVec.slt_eq_decide, toInt_ofNat_small _ (by omega)]
    have : ¬ (((k + s : Nat) : Int) < (0#32 : BitVec 32).toInt) := by
      show ¬ (((k + s : Nat) : Int) < 0)
      omega
    rw [decide_eq_false this]
    rfl
  rw [hc]
  exact ValueIdx.select_zero _ _

/-- Row `n` of the index column holds `n / 2 + n % 2`. -/
theorem index_at (i : S32000x1.Idx) :
    (val_main_v18 (F := F) i).toInt = (((i 0).val / 2 + (i 0).val % 2 : Nat) : Int) := by
  have h0 : (i 0).val < 32000 := (i 0).isLt
  rw [val_main_v18_apply, val_main_v17_apply, val_main_v14_apply, val_main_v16_apply, val_main_v13_apply,
    val_main_v15_apply, val_main_c_0_apply, val_main_c_1_apply, val_main_v11_apply, val_main_v10_apply,
    val_main_v8_apply, val_main_v9_apply, val_main_v5_apply, val_main_v3_apply, val_main_v4_apply,
    val_main_c_apply, val_main_v7_apply, val_main_v6_apply, val_main_v2_apply]
  exact (congrArg BitVec.toInt (index_word ((i 0).val / 2) ((i 0).val % 2) (by omega) (by omega))).trans
    (toInt_ofNat_small _ (by omega))

end Cert.ReferenceIdeal.IndexVector

end
-- ==== Proof.RefValue.lean ====
/-
  The reference computes the overlap-add.  It projects every frame (a product contracted over the
  features), views the [8, 2, 16000, 16] projections as 32000 half-frames of 8 samples per row
  `2 b + c` (half-frame `2 k + s` is half `s` of frame `k`), adds half-frame `n` into output half-frame
  `n / 2 + n % 2` of a zero array [16, 16001, 8], and views the result as [8, 2, 128008].  The
  half-frames landing on output half-frame `j` are `2 j` (when `j < 16000`) and `2 j - 1` (when `0 < j`):
  the first half of frame `j` and the second half of frame `j - 1`.
-/
import proofs.«120497_j52664888983802_2_alg».proof.Proof.Gen.ReferenceIdeal.Read
import proofs.«120497_j52664888983802_2_alg».proof.Proof.Spec
import proofs.«120497_j52664888983802_2_alg».proof.Proof.LibMidScatter
import proofs.«120497_j52664888983802_2_alg».proof.Proof.RefIndexVector

noncomputable section

namespace Cert.ReferenceIdeal.RefValue

open Cert.ReferenceIdeal Cert.ReferenceIdeal.Gen Cert.ReferenceIdeal.Read Idealize.ShloMosaic
open Idealize.ShloMosaic.ValueIdx Cert.Proof.Spec Cert.Proof.LibMidScatter

/-- The contracted product, entry by entry, is the projection. -/
theorem projections (x0 : S8x2x16000x512.Idx → EReal) (x1 : S16x512.Idx → EReal) (q : S8x2x16000x16.Idx) :
    val_main_v0 (F := Ideal) x0 x1 q = proj x0 x1 (q 0).val (q 1).val (q 2).val (q 3).val := by
  refine (val_main_v0_apply x0 x1 q).trans ?_
  refine Eq.trans ?_ (proj_at x0 x1 (q 0) (q 1) (q 2) (q 3)).symm
  refine Finset.sum_congr rfl fun k _ => ?_
  have el : lidx_main_v0 q k = ix4 (q 0) (q 1) (q 2) k := funext fun a => by
    match a with
    | ⟨0, _⟩ => rfl
    | ⟨1, _⟩ => rfl
    | ⟨2, _⟩ => rfl
    | ⟨3, _⟩ => rfl
  have er : ridx_main_v0 q k = ix2 (q 3) k := funext fun a => by
    match a with
    | ⟨0, _⟩ => rfl
    | ⟨1, _⟩ => rfl
  rw [el, er]
  rfl

/-- Sample `c` of half-frame `n` of row `a`, as a projection: the row-major position
    `(a * 32000 + n) * 8 + c` read back through the extents 2, 16000, 16. -/
def halfFrame (x0 : SX.Idx → EReal) (x1 : SW.Idx → EReal) (a n c : Nat) : EReal :=
  proj x0 x1 (((a * 32000 + n) * 8 + c) / 512000) (((a * 32000 + n) * 8 + c) / 256000 % 2)
    (((a * 32000 + n) * 8 + c) / 16 % 16000) (((a * 32000 + n) * 8 + c) % 16)

/-- The update array of the scatter, entry by entry. -/
theorem update_at (x0 : S8x2x16000x512.Idx → EReal) (x1 : S16x512.Idx → EReal) (u : S16x32000x8.Idx) :
    val_main_v1 (F := Ideal) x0 x1 u = halfFrame x0 x1 (u 0).val (u 1).val (u 2).val :=
  (val_main_v1_apply (F := Ideal) x0 x1 u).trans (projections x0 x1 (idx_main_v1 u))

/-- The half-frames `n` (of 32000) with `n / 2 + n % 2 = j` are `2 j` and `2 j - 1`, where those exist. -/
theorem sum_landing (f : Nat → EReal) (j : Nat) (hj : j < 16001) :
    ∑ n ∈ Finset.univ.filter (fun n : Fin 32000 => n.val / 2 + n.val % 2 = j), f n.val
      = (if j < 16000 then f (2 * j) else 0) + (if 0 < j then f (2 * j - 1) else 0) := by
  by_cases h0 : j = 0
  · subst h0
    rw [if_pos (by omega), if_neg (by omega), add_zero]
    refine (Finset.sum_eq_single (⟨0, by omega⟩ : Fin 32000) ?_ ?_).trans rfl
    · intro b hb hne
      exfalso
      apply hne
      apply Fin.ext
      have := (Finset.mem_filter.1 hb).2
      show b.val = 0
      omega
    · intro h
      exfalso
      exact h (Finset.mem_filter.2 ⟨Finset.mem_univ _, rfl⟩)
  · by_cases h1 : j < 16000
    · rw [if_pos h1, if_pos (by omega)]
      refine (Finset.sum_eq_add (⟨2 * j, by omega⟩ : Fin 32000) (⟨2 * j - 1, by omega⟩ : Fin 32000) ?_ ?_ ?_ ?_).trans rfl
      · intro h
        have := congrArg Fin.val h
        simp only at this
        omega
      · intro b hb hne
        exfalso
        have hv := (Finset.mem_filter.1 hb).2
        have hb' : b.val = 2 * j ∨ b.val = 2 * j - 1 := by omega
        rcases hb' with hb' | hb'
        · exact hne.1 (Fin.ext hb')
        · exact hne.2 (Fin.ext hb')
      · intro h
        exfalso
        refine h (Finset.mem_filter.2 ⟨Finset.mem_univ _, ?_⟩)
        show 2 * j / 2 + 2 * j % 2 = j
        omega
      · intro h
        exfalso
        refine h (Finset.mem_filter.2 ⟨Finset.mem_univ _, ?_⟩)
        show (2 * j - 1) / 2 + (2 * j - 1) % 2 = j
        omega
    · have hj' : j = 16000 := by omega
      subst hj'
      rw [if_neg (by omega), if_pos (by omega), zero_add]
      refine (Finset.sum_eq_single (⟨31999, by omega⟩ : Fin 32000) ?_ ?_).trans rfl
      · intro b hb hne
        exfalso
        apply hne
        apply Fin.ext
        have := (Finset.mem_filter.1 hb).2
        have hlt := b.isLt
        show b.val = 31999
        omega
      · intro h
        exfalso
        exact h (Finset.mem_filter.2 ⟨Finset.mem_univ _, rfl⟩)

/-- The scatter's result at `(a, j, c)`: the zero array plus the half-frames landing on half-frame `j`. -/
theorem scatter_at (x0 : S8x2x16000x512.Idx → EReal) (x1 : S16x512.Idx → EReal) (i : S16x16001x8.Idx) :
    val_main_v19 (F := Ideal) x0 x1 i
      = (if (i 1).val < 16000 then halfFrame x0 x1 (i 0).val (2 * (i 1).val) (i 2).val else 0)
        + (if 0 < (i 1).val then halfFrame x0 x1 (i 0).val (2 * (i 1).val - 1) (i 2).val else 0) := by
  have hj : (i 1).val < 16001 := (i 1).isLt
  unfold val_main_v19
  refine (scatterAdd_mid_apply (A := 16) (N := 16001) (L := 8) (M := 32000)
    Cert.ReferenceIdeal.Facts₀.scatter_S16x16001x8_S32000x1_S16x32000x8_02_1_1_1_wf
    (val_main_v12 (F := Ideal)) (val_main_v18 (F := Ideal)) (val_main_v1 (F := Ideal) x0 x1) i).trans ?_
  have hz : val_main_v12 (F := Ideal) i = 0 := by
    rw [val_main_v12_apply, val_main_cst_apply]
    exact Ideal.ofBits_zero_f32
  rw [hz, zero_add]
  have hfilter : (Finset.univ.filter (fun n : Fin 32000 =>
        (val_main_v18 (F := Ideal) (ix2 n (0 : Fin 1))).toInt = (((i 1).val : Nat) : Int)))
      = Finset.univ.filter (fun n : Fin 32000 => n.val / 2 + n.val % 2 = (i 1).val) := by
    refine Finset.filter_congr fun n _ => ?_
    rw [Cert.ReferenceIdeal.IndexVector.index_at]
    show (((n.val / 2 + n.val % 2 : Nat) : Int) = ((i 1).val : Int)) ↔ _
    omega
  rw [hfilter]
  refine Eq.trans ?_ (sum_landing (fun n => halfFrame x0 x1 (i 0).val n (i 2).val) (i 1).val hj)
  refine Finset.sum_congr rfl fun n _ => ?_
  exact update_at x0 x1 (ix3 (i 0) n (i 2))

/-- The reference's result is the overlap-add of the projected frames. -/
theorem reference_eq (x0 : S8x2x16000x512.Idx → EReal) (x1 : S16x512.Idx → EReal) :
    val_main_v20 (F := Ideal) x0 x1 = overlapAdd x0 x1 := by
  funext i
  have h0 : (i 0).val < 8 := (i 0).isLt
  have h1 : (i 1).val < 2 := (i 1).isLt
  have h2 : (i 2).val < 128008 := (i 2).isLt
  refine (val_main_v20_apply (F := Ideal) x0 x1 i).trans ?_
  refine (scatter_at x0 x1 (idx_main_v20 i)).trans ?_
  have hB : (idx_main_v20 i 0).val = (i 0).val * 2 + (i 1).val := by
    show (((i 0).val * 2 + (i 1).val) * 128008 + (i 2).val) / 128008 = _
    omega
  have hJ : (idx_main_v20 i 1).val = (i 2).val / 8 := by
    show (((i 0).val * 2 + (i 1).val) * 128008 + (i 2).val) / 8 % 16001 = _
    omega
  have hL : (idx_main_v20 i 2).val = (i 2).val % 8 := by
    show (((i 0).val * 2 + (i 1).val) * 128008 + (i 2).val) % 8 = _
    omega
  rw [hB, hJ, hL]
  unfold overlapAdd
  congr 1
  · by_cases h : (i 2).val / 8 < 16000
    · rw [if_pos h, if_pos h]
      unfold halfFrame
      refine proj_congr x0 x1 ?_ ?_ ?_ ?_ <;> omega
    · rw [if_neg h, if_neg h]
  · by_cases h : 0 < (i 2).val / 8
    · rw [if_pos h, if_pos h]
      unfold halfFrame
      refine proj_congr x0 x1 ?_ ?_ ?_ ?_ <;> omega
    · rw [if_neg h, if_neg h]

end Cert.ReferenceIdeal.RefValue

end
-- ==== Proof.lean ====
/-
  The kernel and its reference compute the same signal.

  Both project every frame of the mixture array on the sixteen rows of the basis array (a product
  contracted over the 512 features; at the ideal values the kernel's narrowing of the operands changes
  nothing and its blocking of the 256000 frames into 50 blocks of 5120 rows is only a tiling), and both
  overlap-add the two eight-sample halves of consecutive frames: output half-frame `j` is the first half
  of frame `j` plus the second half of frame `j - 1`.  The kernel forms the sum by padding the first halves
  with a zero half-frame at the end and the second halves with one at the front; the reference adds each
  half-frame into a zero array at the half-frame's index.  On the extended reals a sum of the landing
  half-frames in either order, with zero for a missing one, is the same number, so no finiteness of the
  inputs is used.  The three frame claims are the programs' runs; the idealization rewrote no operation.
-/
import proofs.«120497_j52664888983802_2_alg».proof.Defs
import proofs.«120497_j52664888983802_2_alg».proof.Proof.Gen.Kernel
import proofs.«120497_j52664888983802_2_alg».proof.Proof.Gen.Kernel.Skeleton
import proofs.«120497_j52664888983802_2_alg».proof.Proof.Gen.Kernel.Launch
import proofs.«120497_j52664888983802_2_alg».proof.Proof.Gen.Kernel.Points
import proofs.«120497_j52664888983802_2_alg».proof.Proof.Gen.Kernel.Frame
import proofs.«120497_j52664888983802_2_alg».proof.Proof.Gen.KernelIdeal
import proofs.«120497_j52664888983802_2_alg».proof.Proof.Gen.KernelIdeal.Skeleton
import proofs.«120497_j52664888983802_2_alg».proof.Proof.Gen.KernelIdeal.Launch
import proofs.«120497_j52664888983802_2_alg».proof.Proof.Gen.KernelIdeal.Points
import proofs.«120497_j52664888983802_2_alg».proof.Proof.Gen.KernelIdeal.Frame
import proofs.«120497_j52664888983802_2_alg».proof.Proof.Gen.ReferenceIdeal
import proofs.«120497_j52664888983802_2_alg».proof.Proof.Gen.Pre_finite_inputs
import proofs.«120497_j52664888983802_2_alg».proof.Proof.Gen.ReferenceIdeal.Run
import proofs.«120497_j52664888983802_2_alg».proof.Proof.Gen.ReferenceIdeal.Read
import proofs.«120497_j52664888983802_2_alg».proof.Proof.KernelValue
import proofs.«120497_j52664888983802_2_alg».proof.Proof.RefValue
import Idealize.ShloMosaic.Adequacy
import Idealize.ShloMosaic.Init

noncomputable section

namespace Cert.Proof

open Idealize.ShloMosaic Idealize.SL.Sem

/-- Each program runs to the end without a fault and leaves its argument arrays as they were. -/
theorem frame_kernel : Cert.frame_Kernel := fun m ρ _ => Cert.Kernel.Gen.frame m ρ
theorem frame_kernel_ideal : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2) (Cert.ReferenceIdeal.Value.run (F := Ideal) m ρ)

/-- The idealized kernel is the kernel's own text read at the ideal values: nothing was rewritten. -/
theorem preserves : Cert.preserves_Kernel_KernelIdeal := trivial

/-- From memories agreeing on the arguments both idealized programs end with the overlap-add of the projected
    frames in their result buffers. -/
theorem algebraic : Cert.algebraic_KernelIdeal_ReferenceIdeal := by
  intro m ρ m' ρ' _ hagree
  refine ⟨fun c => Cert.Proof.Spec.overlapAdd
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Body.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v20_eq, Cert.ReferenceIdeal.RefValue.reference_eq,
    (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
